-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S16384x4096 : Shape := ⟨2, ![16384, 4096]⟩
abbrev S32768x2048 : Shape := ⟨2, ![32768, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S32768x2048 : S_.BroadcastsInDim S32768x2048 (![] : Fin 0 → Fin S32768x2048.rank)
  reducesTo_S32768x2048_S_d0_1 : S32768x2048.ReducesTo [0, 1] S_

variable [Facts]

def fn_part1 {F : FTy → Type} [FloatOps F] (main_v13 : IVec S_ 1) (main_v16 : IVec S32768x2048 1) : IVec S_ 1 :=
  let main_c_5 : IVec S_ 1 := constantI S_ 1 1#1
  let main_v17 : IVec S_ 1 := (fun x v => Host.reduce IntOp.andi x v reducesTo_S32768x2048_S_d0_1 h_S_) main_v16 main_c_5
  let main_v18 : IVec S_ 1 := andi main_v13 main_v17
  main_v18

def fn {F : FTy → Type} [FloatOps F] (main_arg0 : FVec F S8x1024x2048 .f32) (main_arg1 : FVec F S16384x4096 .f32) (main_arg2 : FVec F S16384x4096 .f32) (main_arg3 : FVec F S32768x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S32768x2048 .f32 := Host.absf main_arg3
  let main_cst_4 : FVec F S_ .f32 := constant S_ .f32 0x7F800000#32
  let main_v15 : FVec F S32768x2048 .f32 := broadcastInDim S32768x2048 ![] bcast_S_S32768x2048 main_cst_4
  let main_v16 : IVec S32768x2048 1 := cmpf .olt main_v14 main_v15
  fn_part1 (F := F) main_v13 main_v16
-- ==== Kernel.lean ====
abbrev S8x1024x2048 : Shape := ⟨3, ![8, 1024, 2048]⟩
abbrev S16384x4096 : Shape := ⟨2, ![16384, 4096]⟩
abbrev S32768x2048 : Shape := ⟨2, ![32768, 2048]⟩
abbrev S8x2048x4096 : Shape := ⟨3, ![8, 2048, 4096]⟩
abbrev S8x4096x2048 : Shape := ⟨3, ![8, 4096, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8x1024x2048, .f32⟩
  | .hbm, ⟨1, _⟩ => ⟨S16384x4096, .f32⟩
  | .hbm, ⟨2, _⟩ => ⟨S16384x4096, .f32⟩
  | .hbm, ⟨3, _⟩ => ⟨S32768x2048, .f32⟩
  | .hbm, ⟨4, _⟩ => ⟨S8x2048x4096, .f32⟩
  | .hbm, ⟨5, _⟩ => ⟨S8x2048x4096, .f32⟩
  | .hbm, ⟨6, _⟩ => ⟨S8x4096x2048, .f32⟩
  | .hbm, ⟨7, _⟩ => ⟨S8x1024x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x4096_S8x2048x4096 : S16384x4096.ShapeCasts S8x2048x4096
  shapeCasts_S32768x2048_S8x4096x2048 : S32768x2048.ShapeCasts S8x4096x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .f32 = 32 ∨ (Rect.block (s := S8x2048x4096) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .f32 = 32 ∨ (Rect.block (s := S8x2048x4096) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S16384x4096 : Shape := ⟨2, ![16384, 4096]⟩
abbrev S32768x2048 : Shape := ⟨2, ![32768, 2048]⟩
abbrev S8x2048x4096 : Shape := ⟨3, ![8, 2048, 4096]⟩
abbrev S8x4096x2048 : Shape := ⟨3, ![8, 4096, 2048]⟩
abbrev S8x1024x4096 : Shape := ⟨3, ![8, 1024, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S16384x4096, .f32⟩
  | .hbm, ⟨2, _⟩ => ⟨S16384x4096, .f32⟩
  | .hbm, ⟨3, _⟩ => ⟨S32768x2048, .f32⟩
  | .hbm, ⟨4, _⟩ => ⟨S8x2048x4096, .f32⟩
  | .hbm, ⟨5, _⟩ => ⟨S8x2048x4096, .f32⟩
  | .hbm, ⟨6, _⟩ => ⟨S8x4096x2048, .f32⟩
  | .hbm, ⟨7, _⟩ => ⟨S8x1024x4096, .f32⟩
  | .hbm, ⟨8, _⟩ => ⟨S8x1024x4096, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S32768x2048_S8x4096x2048 : S32768x2048.ShapeCasts S8x4096x2048
  bcast_S_S8x1024x4096 : S_.BroadcastsInDim S8x1024x4096 (![] : Fin 0 → Fin S8x1024x4096.rank)
  dot_S8x1024x2048_S8x2048x4096_S8x1024x4096_2_1_1_2_0_0_wf : DotDims.WF S8x1024x2048 S8x2048x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.LibSumBlocks.lean ====
/-
  A sum over the first `a * b` naturals, cut into `a` consecutive blocks of `b` terms each.

  A contraction of depth `a * b` that is carried out `b` terms at a time — one partial sum per block, the partial
  sums then added up — meets every term exactly once: the term at `k` in block `k / b`, at place `k % b`. In a
  commutative monoid the two groupings have the same value; nothing else about the addition is used (in particular
  no cancellation, so the statement holds on the extended reals with their infinities).
-/
import Mathlib.Algebra.BigOperators.Fin
import Mathlib.Algebra.BigOperators.Intervals

namespace Cert.Lib.SumBlocks

open Finset

/-- The sum of `g` over `0 … a·b - 1` is the sum over the blocks `s < a` of the block's `b` terms `g (b·s + r)`, `r < b`. -/
theorem sum_range_mul_blocks {M : Type*} [AddCommMonoid M] (g : ℕ → M) (a b : ℕ) :
    ∑ k ∈ range (a * b), g k = ∑ s ∈ range a, ∑ r ∈ range b, g (b * s + r) := by
  induction a with
  | zero => simp
  | succ a ih =>
    rw [Nat.succ_mul, sum_range_add, ih, sum_range_succ, Nat.mul_comm a b]

/-- The same with the whole sum and each block's sum indexed by `Fin`: a `Fin (a·b)`-indexed sum of a function of the
    index's value is the sum over the blocks `s < a` of the `Fin b`-indexed sums of the block's terms. -/
theorem sum_fin_mul_blocks {M : Type*} [AddCommMonoid M] (g : ℕ → M) (a b : ℕ) :
    ∑ k : Fin (a * b), g k.val = ∑ s ∈ range a, ∑ r : Fin b, g (b * s + r.val) := by
  rw [Fin.sum_univ_eq_sum_range (fun k => g k) (a * b), sum_range_mul_blocks]
  exact sum_congr rfl fun s _ => (Fin.sum_univ_eq_sum_range (fun r => g (b * s + r)) b).symm

/-- The instance a depth-4096 contraction done in eight blocks of 512 needs, with the literal `4096` in the type. -/
theorem sum_fin_4096_blocks {M : Type*} [AddCommMonoid M] (g : ℕ → M) :
    ∑ k : Fin 4096, g k.val = ∑ s ∈ range 8, ∑ r : Fin 512, g (512 * s + r.val) :=
  sum_fin_mul_blocks g 8 512

end Cert.Lib.SumBlocks
-- ==== Proof.Spec.lean ====
/-
  The function both programs compute, written once over natural-number coordinates.

  For one expert `e`, a token row `t` and a hidden column `i`, the two up-projections are the row-by-column sums
  `p_W(e,t,i) = ∑_k X[e,t,k] · W[e,k,i]` (depth 2048) for the gate matrix `W = G` and the inner matrix `W = I`; the hidden
  activation is `h(e,t,i) = (p_G · σ(p_G)) · p_I` with `σ` the logistic function; the result is the down-projection
  `gluOut(e,t,d) = ∑_i h(e,t,i) · O[e,i,d]` (depth 4096).

  The depth-4096 sum may be taken 256 terms at a time — sixteen partial sums, then added up — without changing its
  value: only commutativity and associativity of the addition on the extended reals are used, so no finiteness of
  the entries is needed.

  Arrays are read at natural-number coordinates through `at3`, which returns the entry when the three coordinates
  are in range (and `0` otherwise; that branch is never met by the sums below).
-/
import Idealize.ShloMosaic.PureOps.Ideal
import Idealize.ShloMosaic.Lib.ValueIdx
import proofs.«166152_j53695681135019_2_alg».proof.Proof.LibSumBlocks

noncomputable section

namespace Cert.ExpertGlu

open Idealize.ShloMosaic Idealize.ShloMosaic.ValueIdx

/-- The entry of a rank-3 array at natural-number coordinates `(a, b, c)`. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

/-- An array read at an index is `at3` at that index's three coordinates. -/
theorem at3_of_val {n0 n1 n2 : ℕ} (X : (⟨3, ![n0, n1, n2]⟩ : Shape).Idx → EReal) (j : (⟨3, ![n0, n1, n2]⟩ : Shape).Idx)
    (a b c : ℕ) (h0 : (j 0).val = a) (h1 : (j 1).val = b) (h2 : (j 2).val = c) : X j = at3 X a b c := by
  subst h0; subst h1; subst h2
  unfold at3
  rw [dif_pos ⟨(j 0).isLt, (j 1).isLt, (j 2).isLt⟩]
  exact congrArg X (eq_ix3 j)

/-- One up-projection entry: row `t` of expert `e`'s tokens against column `i` of the expert's matrix `W`. -/
def upProj (X : (⟨3, ![8, 1024, 2048]⟩ : Shape).Idx → EReal) (W : (⟨3, ![8, 2048, 4096]⟩ : Shape).Idx → EReal)
    (e t i : ℕ) : EReal :=
  ∑ k : Fin 2048, at3 X e t k.val * at3 W e k.val i

/-- The hidden activation: the gate projection times its logistic, times the inner projection. -/
def gluHidden (X : (⟨3, ![8, 1024, 2048]⟩ : Shape).Idx → EReal) (G I : (⟨3, ![8, 2048, 4096]⟩ : Shape).Idx → EReal)
    (e t i : ℕ) : EReal :=
  upProj X G e t i * Ideal.logistic (upProj X G e t i) * upProj X I e t i

/-- The result entry: the hidden row against column `d` of the expert's down-projection matrix. -/
def gluOut (X : (⟨3, ![8, 1024, 2048]⟩ : Shape).Idx → EReal) (G I : (⟨3, ![8, 2048, 4096]⟩ : Shape).Idx → EReal)
    (O : (⟨3, ![8, 4096, 2048]⟩ : Shape).Idx → EReal) (e t d : ℕ) : EReal :=
  ∑ i : Fin 4096, gluHidden X G I e t i.val * at3 O e i.val d

/-- The result as a whole array. -/
def gluOutArr (X : (⟨3, ![8, 1024, 2048]⟩ : Shape).Idx → EReal) (G I : (⟨3, ![8, 2048, 4096]⟩ : Shape).Idx → EReal)
    (O : (⟨3, ![8, 4096, 2048]⟩ : Shape).Idx → EReal) : (⟨3, ![8, 1024, 2048]⟩ : Shape).Idx → EReal :=
  fun j => gluOut X G I O (j 0).val (j 1).val (j 2).val

/-- The down-projection taken in sixteen blocks of 256 hidden columns: the same value. -/
theorem gluOut_blocks (X : (⟨3, ![8, 1024, 2048]⟩ : Shape).Idx → EReal) (G I : (⟨3, ![8, 2048, 4096]⟩ : Shape).Idx → EReal)
    (O : (⟨3, ![8, 4096, 2048]⟩ : Shape).Idx → EReal) (e t d : ℕ) :
    gluOut X G I O e t d
      = ∑ s ∈ Finset.range 16, ∑ r : Fin 256, gluHidden X G I e t (256 * s + r.val) * at3 O e (256 * s + r.val) d :=
  Cert.Lib.SumBlocks.sum_fin_mul_blocks (fun i => gluHidden X G I e t i * at3 O e i d) 16 256

end Cert.ExpertGlu

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.Payload.lean ====
/-
  The kernel body's arithmetic at one grid point, read entry by entry on the extended reals.

  At a grid point the body holds one expert's token block `x0` (1024 × 2048), a 256-column block of the gate matrix
  `x1` and of the inner matrix `x2` (2048 × 256 each), a 256-row block of the down-projection matrix `x3`
  (256 × 2048) and the running result block `acc` (1024 × 2048). It forms the two block projections
  `p_w(t,r) = ∑_k x0[t,k] · w[k,r]`, the block of hidden activations `(p_1 · σ(p_1)) · p_2`, and adds to `acc[t,d]` the
  partial down-projection `∑_r hidden[t,r] · x3[r,d]` over the block's 256 hidden columns. Changes of float format
  are the identity here and each matrix product accumulated into zero is the exact sum.
-/
import proofs.«166152_j53695681135019_2_alg».proof.Proof.Gen.KernelIdeal.Skeleton
import proofs.«166152_j53695681135019_2_alg».proof.Proof.LibMatmulPlain
import Idealize.ShloMosaic.Lib.ValueLayout

noncomputable section

namespace Cert.KernelIdeal.Body

open Cert.KernelIdeal Cert.KernelIdeal.Gen Idealize.ShloMosaic Idealize.ShloMosaic.ValueIdx Cert.Lib.MatmulPlain

/-- A block projection entry: row `t` of the token block against column `r` of a 256-column weight block. -/
def blkProj (x0 : Vec Ideal S1x1024x2048 .f32) (w : Vec Ideal S1x2048x256 .f32) (t : Fin 1024) (r : Fin 256) : EReal :=
  ∑ k : Fin 2048, x0 (ix3 (0 : Fin 1) t k) * w (ix3 (0 : Fin 1) k r)

/-- The block of hidden activations: gate projection times its logistic, times the inner projection. -/
def blkHidden (x0 : Vec Ideal S1x1024x2048 .f32) (x1 x2 : Vec Ideal S1x2048x256 .f32) (t : Fin 1024) (r : Fin 256) : EReal :=
  blkProj x0 x1 t r * Ideal.logistic (blkProj x0 x1 t r) * blkProj x0 x2 t r

/-- The value the body stores at the first point of a reduction run is the zero block. -/
theorem pay1_apply (u : Fin 1) (t : Fin 1024) (d : Fin 2048) : k0_pay1 (F := Ideal) (ix3 u t d) = 0 := by
  unfold k0_pay1
  refine (shapeCast_ab_1ab_apply _ _ u t d).trans ?_
  exact Ideal.ofBits_zero_f32

/-- The two up-projections of the body, each a product into zero of the token block and a weight block. -/
theorem proj_apply (x0 : Vec Ideal S1x1024x2048 .f32) (w : Vec Ideal S1x2048x256 .f32) (t : Fin 1024) (r : Fin 256) :
    matmul (F := Ideal) dot_S1024x2048_S2048x256_S1024x256_1_0_0_1_n_n none
        (truncf .bf16 (shapeCast S1024x2048 x0 shapeCasts_S1x1024x2048_S1024x2048) bitsLt_bf16_f32)
        (truncf .bf16 (shapeCast S2048x256 w shapeCasts_S1x2048x256_S2048x256) bitsLt_bf16_f32)
        (constant (F := Ideal) S1024x256 .f32 0x00000000#32) (ix2 t r)
      = blkProj x0 w t r :=
  (matmul_plain_zero_apply (A := 1024) (K := 2048) (B := 256) none _ _ t r).trans (Finset.sum_congr rfl fun k _ =>
    congrArg₂ (· * ·) (shapeCast_1ab_ab_apply x0 _ t k) (shapeCast_1ab_ab_apply w _ k r))

/-- What the body stores back: the running block plus the partial down-projection over the block's hidden columns. -/
theorem pay2_apply (x0 : Vec Ideal S1x1024x2048 .f32) (x1 x2 : Vec Ideal S1x2048x256 .f32)
    (x3 : Vec Ideal S1x256x2048 .f32) (acc : Vec Ideal S1x1024x2048 .f32) (u : Fin 1) (t : Fin 1024) (d : Fin 2048) :
    k0_pay2 (F := Ideal) x0 x1 x2 x3 acc (ix3 u t d)
      = acc (ix3 u t d) + ∑ r : Fin 256, blkHidden x0 x1 x2 t r * x3 (ix3 (0 : Fin 1) r d) := by
  obtain rfl : u = 0 := Subsingleton.elim _ _
  unfold k0_pay2
  refine (shapeCast_ab_1ab_apply _ _ 0 t d).trans ?_
  refine (addf_apply _ _ (ix2 t d)).trans ?_
  refine congrArg₂ (· + ·) (shapeCast_1ab_ab_apply acc _ t d) ?_
  refine (matmul_plain_zero_apply (A := 1024) (K := 256) (B := 2048) none _ _ t d).trans (Finset.sum_congr rfl fun r _ => ?_)
  refine congrArg₂ (· * ·) ?_ (shapeCast_1ab_ab_apply x3 _ r d)
  unfold blkHidden
  rw [← proj_apply x0 x1 t r, ← proj_apply x0 x2 t r]
  rfl

end Cert.KernelIdeal.Body

end
-- ==== Proof.KernelValue.lean ====
/-
  The kernel's result array, entry by entry, is the expert network's output.

  The grid runs over the eight experts and, within an expert, over the sixteen blocks of 256 hidden columns. At
  point `n` (expert `n / 16`, hidden block `n % 16`) the body sees the expert's whole token block, the hidden block's
  columns of the gate and inner matrices and its rows of the down-projection matrix; at the first block of an
  expert it starts the expert's result block from zero, and at every block it adds the block's partial
  down-projection. After the sixteenth block the result block holds `0 + ∑_{s<16} (partial of block s)`, which is
  the depth-4096 down-projection regrouped in sixteen blocks of 256 — the same value on the extended reals.
-/
import proofs.«166152_j53695681135019_2_alg».proof.Proof.Gen.KernelIdeal.Value
import proofs.«166152_j53695681135019_2_alg».proof.Proof.Spec
import proofs.«166152_j53695681135019_2_alg».proof.Proof.Payload
import Idealize.ShloMosaic.Lib.StableHlo.Run

noncomputable section

namespace Cert.KernelIdeal.Fold

open Cert.KernelIdeal Cert.KernelIdeal.Gen Cert.KernelIdeal.Value Cert.KernelIdeal.Body Cert.ExpertGlu
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The four arrays as the region finds them -/

/-- The token array. -/
def tokens (c : Dev nD) : (⟨3, ![8, 1024, 2048]⟩ : Shape).Idx → EReal := V m c main_arg0
/-- The gate matrices, one per expert (the host's reshape of the second argument). -/
def gates (c : Dev nD) : (⟨3, ![8, 2048, 4096]⟩ : Shape).Idx → EReal := V m c main_v0
/-- The inner matrices, one per expert (the host's reshape of the third argument). -/
def inners (c : Dev nD) : (⟨3, ![8, 2048, 4096]⟩ : Shape).Idx → EReal := V m c main_v1
/-- The down-projection matrices, one per expert (the host's reshape of the fourth argument). -/
def downs (c : Dev nD) : (⟨3, ![8, 4096, 2048]⟩ : Shape).Idx → EReal := V m c main_v2

theorem tokens_eq (c : Dev nD) : tokens m c = m ((c : Thread nD τ).loc main_arg0) := V_main_arg0 m c

theorem gates_eq (c : Dev nD) :
    gates m c = shapeCast S8x2048x4096 (m ((c : Thread nD τ).loc main_arg1)) shapeCasts_S16384x4096_S8x2048x4096 := by
  unfold gates; dsimp only [Gen.V, Gen.hostOps0]; after_results; rfl

theorem inners_eq (c : Dev nD) :
    inners m c = shapeCast S8x2048x4096 (m ((c : Thread nD τ).loc main_arg2)) shapeCasts_S16384x4096_S8x2048x4096 := by
  unfold inners; dsimp only [Gen.V, Gen.hostOps0]; after_results; rfl

theorem downs_eq (c : Dev nD) :
    downs m c = shapeCast S8x4096x2048 (m ((c : Thread nD τ).loc main_arg3)) shapeCasts_S32768x2048_S8x4096x2048 := by
  unfold downs; dsimp only [Gen.V, Gen.hostOps0]; after_results; rfl

/-! ## The blocks the body sees at a grid point -/

/-- The printed index maps, decided over the grid: at point `t` every window is on expert `t / 16`; the gate and
    inner windows are on column block `t % 16`, the down-projection window on row block `t % 16`. -/
theorem idx_facts_in : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = t.val % 16
    ∧ win0_3.index t (0 : Fin 3) = t.val / 16 ∧ win0_3.index t (1 : Fin 3) = t.val % 16 ∧ win0_3.index t (2 : Fin 3) = 0 :=
  (by decide +kernel : ∀ t : Fin grid0.N, _)

/-- The token block at point `n` is expert `n / 16`'s rows. -/
theorem blk0_apply (c : Dev nD) (n : ℕ) (h : n < cfg0.N) (u : Fin 1) (t : Fin 1024) (k : Fin 2048) :
    iblk m c 0 ⟨n, h⟩ (ix3 u t k) = at3 (tokens m c) (n / 16) t.val k.val := by
  obtain ⟨e0, e1, e2, -⟩ := idx_facts_in ⟨n, h⟩
  have e0' : win0_0.index ⟨n, h⟩ (0 : Fin 3) = n / 16 := e0
  have hu : u.val < 1 := u.isLt
  show tokens m c (((cfg0.win 0).blk ⟨n, h⟩).view.emb (ix3 u t k)) = _
  refine at3_of_val (n0 := 8) (n1 := 1024) (n2 := 2048) _ _ _ _ _ ?_ ?_ ?_
  · show win0_0.index ⟨n, h⟩ (0 : Fin 3) * 1 + 1 * u.val = n / 16
    omega
  · show win0_0.index ⟨n, h⟩ (1 : Fin 3) * 1024 + 1 * t.val = t.val
    omega
  · show win0_0.index ⟨n, h⟩ (2 : Fin 3) * 2048 + 1 * k.val = k.val
    omega

/-- The gate block at point `n`: expert `n / 16`, columns `256·(n % 16) …`. -/
theorem blk1_apply (c : Dev nD) (n : ℕ) (h : n < cfg0.N) (u : Fin 1) (k : Fin 2048) (r : Fin 256) :
    iblk m c 1 ⟨n, h⟩ (ix3 u k r) = at3 (gates m c) (n / 16) k.val (256 * (n % 16) + r.val) := by
  obtain ⟨-, -, -, e0, e1, e2, -⟩ := idx_facts_in ⟨n, h⟩
  have e0' : win0_1.index ⟨n, h⟩ (0 : Fin 3) = n / 16 := e0
  have e2' : win0_1.index ⟨n, h⟩ (2 : Fin 3) = n % 16 := e2
  have hu : u.val < 1 := u.isLt
  show gates m c (((cfg0.win 1).blk ⟨n, h⟩).view.emb (ix3 u k r)) = _
  refine at3_of_val (n0 := 8) (n1 := 2048) (n2 := 4096) _ _ _ _ _ ?_ ?_ ?_
  · show win0_1.index ⟨n, h⟩ (0 : Fin 3) * 1 + 1 * u.val = n / 16
    omega
  · show win0_1.index ⟨n, h⟩ (1 : Fin 3) * 2048 + 1 * k.val = k.val
    omega
  · show win0_1.index ⟨n, h⟩ (2 : Fin 3) * 256 + 1 * r.val = 256 * (n % 16) + r.val
    omega

/-- The inner block at point `n`: expert `n / 16`, columns `256·(n % 16) …`. -/
theorem blk2_apply (c : Dev nD) (n : ℕ) (h : n < cfg0.N) (u : Fin 1) (k : Fin 2048) (r : Fin 256) :
    iblk m c 2 ⟨n, h⟩ (ix3 u k r) = at3 (inners m c) (n / 16) k.val (256 * (n % 16) + r.val) := by
  obtain ⟨-, -, -, -, -, -, e0, e1, e2, -⟩ := idx_facts_in ⟨n, h⟩
  have e0' : win0_2.index ⟨n, h⟩ (0 : Fin 3) = n / 16 := e0
  have e2' : win0_2.index ⟨n, h⟩ (2 : Fin 3) = n % 16 := e2
  have hu : u.val < 1 := u.isLt
  show inners m c (((cfg0.win 2).blk ⟨n, h⟩).view.emb (ix3 u k r)) = _
  refine at3_of_val (n0 := 8) (n1 := 2048) (n2 := 4096) _ _ _ _ _ ?_ ?_ ?_
  · show win0_2.index ⟨n, h⟩ (0 : Fin 3) * 1 + 1 * u.val = n / 16
    omega
  · show win0_2.index ⟨n, h⟩ (1 : Fin 3) * 2048 + 1 * k.val = k.val
    omega
  · show win0_2.index ⟨n, h⟩ (2 : Fin 3) * 256 + 1 * r.val = 256 * (n % 16) + r.val
    omega

/-- The down-projection block at point `n`: expert `n / 16`, rows `256·(n % 16) …`. -/
theorem blk3_apply (c : Dev nD) (n : ℕ) (h : n < cfg0.N) (u : Fin 1) (r : Fin 256) (d : Fin 2048) :
    iblk m c 3 ⟨n, h⟩ (ix3 u r d) = at3 (downs m c) (n / 16) (256 * (n % 16) + r.val) d.val := by
  obtain ⟨-, -, -, -, -, -, -, -, -, e0, e1, e2⟩ := idx_facts_in ⟨n, h⟩
  have e0' : win0_3.index ⟨n, h⟩ (0 : Fin 3) = n / 16 := e0
  have e1' : win0_3.index ⟨n, h⟩ (1 : Fin 3) = n % 16 := e1
  have hu : u.val < 1 := u.isLt
  show downs m c (((cfg0.win 3).blk ⟨n, h⟩).view.emb (ix3 u r d)) = _
  refine at3_of_val (n0 := 8) (n1 := 4096) (n2 := 2048) _ _ _ _ _ ?_ ?_ ?_
  · show win0_3.index ⟨n, h⟩ (0 : Fin 3) * 1 + 1 * u.val = n / 16
    omega
  · show win0_3.index ⟨n, h⟩ (1 : Fin 3) * 256 + 1 * r.val = 256 * (n % 16) + r.val
    omega
  · show win0_3.index ⟨n, h⟩ (2 : Fin 3) * 2048 + 1 * d.val = d.val
    omega

/-! ## What one grid point adds -/

/-- A block projection of the point's blocks is the expert's projection at the block's hidden columns. -/
theorem proj_gate (c : Dev nD) (n : ℕ) (h : n < cfg0.N) (t : Fin 1024) (r : Fin 256) :
    blkProj (iblk m c 0 ⟨n, h⟩) (iblk m c 1 ⟨n, h⟩) t r
      = upProj (tokens m c) (gates m c) (n / 16) t.val (256 * (n % 16) + r.val) := by
  unfold blkProj upProj
  exact Finset.sum_congr rfl fun k _ => congrArg₂ (· * ·) (blk0_apply m c n h 0 t k) (blk1_apply m c n h 0 k r)

theorem proj_inner (c : Dev nD) (n : ℕ) (h : n < cfg0.N) (t : Fin 1024) (r : Fin 256) :
    blkProj (iblk m c 0 ⟨n, h⟩) (iblk m c 2 ⟨n, h⟩) t r
      = upProj (tokens m c) (inners m c) (n / 16) t.val (256 * (n % 16) + r.val) := by
  unfold blkProj upProj
  exact Finset.sum_congr rfl fun k _ => congrArg₂ (· * ·) (blk0_apply m c n h 0 t k) (blk2_apply m c n h 0 k r)

/-- The point's block of hidden activations is the expert's hidden row at the block's columns. -/
theorem hidden_blk (c : Dev nD) (n : ℕ) (h : n < cfg0.N) (t : Fin 1024) (r : Fin 256) :
    blkHidden (iblk m c 0 ⟨n, h⟩) (iblk m c 1 ⟨n, h⟩) (iblk m c 2 ⟨n, h⟩) t r
      = gluHidden (tokens m c) (gates m c) (inners m c) (n / 16) t.val (256 * (n % 16) + r.val) := by
  unfold blkHidden gluHidden
  rw [proj_gate m c n h t r, proj_inner m c n h t r]

/-- The partial down-projection point `n` adds to entry `i` of its expert's result block. -/
def addend (c : Dev nD) (n : ℕ) (i : S1x1024x2048.Idx) : EReal :=
  ∑ r : Fin 256, gluHidden (tokens m c) (gates m c) (inners m c) (n / 16) (i 1).val (256 * (n % 16) + r.val)
      * at3 (downs m c) (n / 16) (256 * (n % 16) + r.val) (i 2).val

/-- A point that continues a run leaves the block it found plus its addend. -/
theorem step_apply (c : Dev nD) (n : ℕ) (h : n < cfg0.N) (acc : Vec Ideal S1x1024x2048 .f32) (i : S1x1024x2048.Idx) :
    step4 m c n h acc i = acc i + addend m c n i := by
  obtain ⟨u, t, d, rfl⟩ : ∃ (u : Fin 1) (t : Fin 1024) (d : Fin 2048), i = ix3 u t d := ⟨i 0, i 1, i 2, eq_ix3 i⟩
  unfold step4
  refine (pay2_apply (iblk m c 0 ⟨n, h⟩) (iblk m c 1 ⟨n, h⟩) (iblk m c 2 ⟨n, h⟩) (iblk m c 3 ⟨n, h⟩) acc u t d).trans ?_
  refine congrArg (acc (ix3 u t d) + ·) ?_
  unfold addend
  exact Finset.sum_congr rfl fun r _ => congrArg₂ (· * ·) (hidden_blk m c n h t r) (blk3_apply m c n h 0 r d)

/-- The zero block, at any entry. -/
theorem pay1_zero (i : S1x1024x2048.Idx) : k0_pay1 (F := Ideal) i = 0 := by
  obtain ⟨u, t, d, rfl⟩ : ∃ (u : Fin 1) (t : Fin 1024) (d : Fin 2048), i = ix3 u t d := ⟨i 0, i 1, i 2, eq_ix3 i⟩
  exact pay1_apply u t d

/-- The first point of a run leaves zero plus its addend. -/
theorem reset_apply (c : Dev nD) (n : ℕ) (h : n < cfg0.N) (i : S1x1024x2048.Idx) :
    reset4 m c n h i = 0 + addend m c n i :=
  (step_apply m c n h (k0_pay1 (F := Ideal)) i).trans (congrArg (· + addend m c n i) (pay1_zero i))

/-! ## The whole run of an expert, and the array -/

/-- After the sixteen points of expert `e` the result block holds the expert's output rows. -/
theorem fold_apply (c : Dev nD) (e : ℕ) (b : ℕ) (hb : b = 16 * e) (h : b + 15 < cfg0.N) (i : S1x1024x2048.Idx) :
    Pipeline.accAt (reset4 m c) (step4 m c) b 15 h i
      = gluOut (tokens m c) (gates m c) (inners m c) (downs m c) e (i 1).val (i 2).val := by
  subst hb
  have key : Pipeline.accAt (reset4 m c) (step4 m c) (16 * e) 15 h i
      = 0 + ∑ s ∈ Finset.range 16, addend m c (16 * e + s) i :=
    Pipeline.accAt_add_apply (β := EReal) (reset4 m c) (step4 m c) (fun _ => 0) (addend m c) (16 * e) 15
      (fun h i => reset_apply m c _ h i) (fun n h acc i _ _ => step_apply m c n h acc i) 15 le_rfl h i
  rw [key, zero_add, gluOut_blocks]
  refine Finset.sum_congr rfl fun s hs => ?_
  have hs' : s < 16 := Finset.mem_range.mp hs
  have h1 : (16 * e + s) / 16 = e := by omega
  have h2 : (16 * e + s) % 16 = s := by omega
  unfold addend
  rw [h1, h2]

/-- The kernel's result array is the expert network's output, entry by entry. -/
theorem result_eq (c : Dev nD) :
    Value.G4 (F := Ideal) m c = gluOutArr (tokens m c) (gates m c) (inners m c) (downs m c) := by
  funext j
  have h0 : (j 0).val < 8 := (j 0).isLt
  have h1 : (j 1).val < 1024 := (j 1).isLt
  have h2 : (j 2).val < 2048 := (j 2).isLt
  have hr : run4Of j = (j 0).val := by
    show 1 * ((j 0).val / 1 - 0) + 1 * ((j 1).val / 1024 - 0) + 1 * ((j 2).val / 2048 - 0) = (j 0).val
    omega
  have hN : cfg0.N = 128 := N_0
  unfold G4
  rw [dif_pos (by rw [hr, hN]; omega)]
  refine (fold_apply m c (j 0).val _ (by rw [hr]) _ (loc4Of j)).trans ?_
  show gluOut _ _ _ _ (j 0).val ((j 1).val % 1024) ((j 2).val % 2048) = gluOut _ _ _ _ (j 0).val (j 1).val (j 2).val
  rw [Nat.mod_eq_of_lt h1, Nat.mod_eq_of_lt h2]

end Cert.KernelIdeal.Fold

end
-- ==== Proof.RefValue.lean ====
/-
  The reference's result array, entry by entry, is the expert network's output.

  The reference computes the two up-projections as batched contractions over the model dimension (depth 2048), the
  hidden activation as `(g · (1 / (1 + exp (-g)))) · v`, and the result as one batched contraction over the whole
  hidden dimension (depth 4096). On the extended reals `1 / (1 + exp (-g))` is the logistic function of `g` at every
  `g`, the infinities included, and each contraction is the exact sum.
-/
import proofs.«166152_j53695681135019_2_alg».proof.Proof.Gen.ReferenceIdeal.Read
import proofs.«166152_j53695681135019_2_alg».proof.Proof.Spec

noncomputable section

namespace Cert.ReferenceIdeal.RefValue

open Cert.ReferenceIdeal Cert.ReferenceIdeal.Gen Cert.ReferenceIdeal.Read Cert.ExpertGlu
open Idealize.ShloMosaic Idealize.ShloMosaic.ValueIdx

/-- The f32 word of `1.0` is the extended real one. -/
theorem one_f32 : Ideal.ofBits .f32 0x3F800000#32 = 1 := by
  simp [Ideal.ofBits, Ideal.ieee, -EReal.coe_mul]; norm_num

/-- The expanded sigmoid `1 / (1 + exp (-g))` the reference spells is the logistic function. -/
theorem sigmoid_eq (g : EReal) :
    Ideal.div (Ideal.ofBits .f32 0x3F800000#32) (Ideal.ofBits .f32 0x3F800000#32 + Ideal.exp (-g)) = Ideal.logistic g := by
  rw [one_f32]; rfl

/-- The reference's gate projection at `(e, t, i)`. -/
theorem gate_apply (x0 : (⟨S8x1024x2048, .f32⟩ : BufTy).Contents (Elt Ideal)) (x1 : (⟨S16384x4096, .f32⟩ : BufTy).Contents (Elt Ideal))
    (j : S8x1024x4096.Idx) :
    val_main_v3 (F := Ideal) x0 x1 j = upProj x0 (val_main_v0 (F := Ideal) x1) (j 0).val (j 1).val (j 2).val := by
  rw [val_main_v3_apply]
  unfold upProj
  exact Finset.sum_congr rfl fun k _ => congrArg₂ (· * ·)
    (at3_of_val (n0 := 8) (n1 := 1024) (n2 := 2048) _ _ _ _ _ rfl rfl rfl)
    (at3_of_val (n0 := 8) (n1 := 2048) (n2 := 4096) _ _ _ _ _ rfl rfl rfl)

/-- The reference's inner projection at `(e, t, i)`. -/
theorem inner_apply (x0 : (⟨S8x1024x2048, .f32⟩ : BufTy).Contents (Elt Ideal)) (x2 : (⟨S16384x4096, .f32⟩ : BufTy).Contents (Elt Ideal))
    (j : S8x1024x4096.Idx) :
    val_main_v5 (F := Ideal) x0 x2 j = upProj x0 (val_main_v1 (F := Ideal) x2) (j 0).val (j 1).val (j 2).val := by
  rw [val_main_v5_apply]
  unfold upProj
  exact Finset.sum_congr rfl fun k _ => congrArg₂ (· * ·)
    (at3_of_val (n0 := 8) (n1 := 1024) (n2 := 2048) _ _ _ _ _ rfl rfl rfl)
    (at3_of_val (n0 := 8) (n1 := 2048) (n2 := 4096) _ _ _ _ _ rfl rfl rfl)

/-- The reference's hidden activation at `(e, t, i)`. -/
theorem hidden_apply (x0 : (⟨S8x1024x2048, .f32⟩ : BufTy).Contents (Elt Ideal)) (x1 x2 : (⟨S16384x4096, .f32⟩ : BufTy).Contents (Elt Ideal))
    (j : S8x1024x4096.Idx) :
    val_main_v6 (F := Ideal) x0 x1 x2 j
      = gluHidden x0 (val_main_v0 (F := Ideal) x1) (val_main_v1 (F := Ideal) x2) (j 0).val (j 1).val (j 2).val := by
  rw [val_main_v6_apply, val_main_v4_apply, val_main_call0_v5_apply, val_main_call0_v4_apply, val_main_call0_cst_0_apply,
    val_main_call0_v3_apply, val_main_call0_v2_apply, val_main_call0_cst_apply, val_main_call0_v1_apply,
    val_main_call0_v0_apply, gate_apply, inner_apply]
  unfold gluHidden
  exact congrArg (fun s => upProj x0 (val_main_v0 (F := Ideal) x1) (j 0).val (j 1).val (j 2).val * s
      * upProj x0 (val_main_v1 (F := Ideal) x2) (j 0).val (j 1).val (j 2).val)
    (sigmoid_eq (upProj x0 (val_main_v0 (F := Ideal) x1) (j 0).val (j 1).val (j 2).val))

/-- The reference's result array is the expert network's output, entry by entry. -/
theorem result_eq (x0 : (⟨S8x1024x2048, .f32⟩ : BufTy).Contents (Elt Ideal)) (x1 x2 : (⟨S16384x4096, .f32⟩ : BufTy).Contents (Elt Ideal))
    (x3 : (⟨S32768x2048, .f32⟩ : BufTy).Contents (Elt Ideal)) :
    val_main_v7 (F := Ideal) x0 x1 x2 x3
      = gluOutArr x0 (val_main_v0 (F := Ideal) x1) (val_main_v1 (F := Ideal) x2) (val_main_v2 (F := Ideal) x3) := by
  funext j
  rw [val_main_v7_apply]
  unfold gluOutArr gluOut
  refine Finset.sum_congr rfl fun i _ => ?_
  exact congrArg₂ (· * ·) (hidden_apply x0 x1 x2 (lidx_main_v7 j i))
    (at3_of_val (n0 := 8) (n1 := 4096) (n2 := 2048) _ _ _ _ _ rfl rfl rfl)

end Cert.ReferenceIdeal.RefValue

end
-- ==== Proof.lean ====
/-
  The certificate of the expert network kernel against its reference.

  Both programs compute, for each expert `e`, token row `t` and model column `d`,
  `∑_i ((p_G · σ(p_G)) · p_I)(e,t,i) · O[e,i,d]`, where `p_W(e,t,i) = ∑_k X[e,t,k] · W[e,k,i]` and `σ` is the logistic
  function (Proof/Spec.lean). The kernel takes the sum over the 4096 hidden columns in sixteen blocks of 256, adding
  each block's partial sum into a result block started from zero (Proof/KernelValue.lean, over the generated value
  leg); the reference takes it in one contraction and spells the logistic function as `1 / (1 + exp (-g))`
  (Proof/RefValue.lean, over the generated run). The two agree on the extended reals by regrouping the sum — only
  commutativity and associativity of the addition — so the finiteness of the inputs is not used. The idealized kernel is
  the kernel's own text read on the extended reals (no operation was rewritten), so that conjunct is trivial. Each
  frame claim is the program's generated frame or run.
-/
import proofs.«166152_j53695681135019_2_alg».proof.Defs
import proofs.«166152_j53695681135019_2_alg».proof.Proof.Gen.Kernel.Frame
import proofs.«166152_j53695681135019_2_alg».proof.Proof.Gen.KernelIdeal.Value
import proofs.«166152_j53695681135019_2_alg».proof.Proof.Gen.Pre_finite_inputs
import proofs.«166152_j53695681135019_2_alg».proof.Proof.Gen.ReferenceIdeal.Run
import proofs.«166152_j53695681135019_2_alg».proof.Proof.Gen.ReferenceIdeal.Read
import proofs.«166152_j53695681135019_2_alg».proof.Proof.KernelValue
import proofs.«166152_j53695681135019_2_alg».proof.Proof.RefValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments, the kernel's result array and the reference's are the same
    function of them: each is the expert network's output array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v7_eq, Cert.ReferenceIdeal.RefValue.result_eq, Cert.KernelIdeal.Fold.result_eq,
    Cert.KernelIdeal.Fold.tokens_eq, Cert.KernelIdeal.Fold.gates_eq, Cert.KernelIdeal.Fold.inners_eq,
    Cert.KernelIdeal.Fold.downs_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
